-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x128 : Shape := ⟨3, ![64, 2048, 128]⟩
abbrev S64x2048x2048 : Shape := ⟨3, ![64, 2048, 2048]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel

variable [Facts]

def fn {F : FTy → Type} [FloatOps F] (main_arg0 : FVec F S64x2048x128 .f32) (main_arg1 : FVec F S64x2048x128 .f32) (main_arg2 : FVec F S64x2048x128 .f32) (main_arg3 : IVec S64x2048x2048 1) : IVec S_ 1 :=
  let main_v0 : FVec F S64x2048x128 .f32 := Host.absf main_arg0
  let main_cst : FVec F S_ .f32 := constant S_ .f32 0x7F800000#32
  let main_v1 : FVec F S64x2048x128 .f32 := broadcastInDim S64x2048x128 ![] bcast_S_S64x2048x128 main_cst
  let main_v2 : IVec S64x2048x128 1 := cmpf .olt main_v0 main_v1
  let main_c : IVec S_ 1 := constantI S_ 1 1#1
  let main_v3 : IVec S_ 1 := (fun x v => Host.reduce IntOp.andi x v reducesTo_S64x2048x128_S_d0_1_2 h_S_) main_v2 main_c
  let main_v4 : FVec F S64x2048x128 .f32 := Host.absf main_arg1
  let main_cst_0 : FVec F S_ .f32 := constant S_ .f32 0x7F800000#32
  let main_v5 : FVec F S64x2048x128 .f32 := broadcastInDim S64x2048x128 ![] bcast_S_S64x2048x128 main_cst_0
  let main_v6 : IVec S64x2048x128 1 := cmpf .olt main_v4 main_v5
  let main_c_1 : IVec S_ 1 := constantI S_ 1 1#1
  let main_v7 : IVec S_ 1 := (fun x v => Host.reduce IntOp.andi x v reducesTo_S64x2048x128_S_d0_1_2 h_S_) main_v6 main_c_1
  let main_v8 : IVec S_ 1 := andi main_v3 main_v7
  let main_v9 : FVec F S64x2048x128 .f32 := Host.absf main_arg2
  let main_cst_2 : FVec F S_ .f32 := constant S_ .f32 0x7F800000#32
  let main_v10 : FVec F S64x2048x128 .f32 := broadcastInDim S64x2048x128 ![] bcast_S_S64x2048x128 main_cst_2
  let main_v11 : IVec S64x2048x128 1 := cmpf .olt main_v9 main_v10
  let main_c_3 : IVec S_ 1 := constantI S_ 1 1#1
  let main_v12 : IVec S_ 1 := (fun x v => Host.reduce IntOp.andi x v reducesTo_S64x2048x128_S_d0_1_2 h_S_) main_v11 main_c_3
  let main_v13 : IVec S_ 1 := andi main_v8 main_v12
  main_v13
-- ==== Kernel.lean ====
abbrev S64x2048x128 : Shape := ⟨3, ![64, 2048, 128]⟩
abbrev S64x2048x2048 : Shape := ⟨3, ![64, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S128x2048 : Shape := ⟨2, ![128, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S64x2048x128, .f32⟩
  | .hbm, ⟨1, _⟩ => ⟨S64x2048x128, .f32⟩
  | .hbm, ⟨2, _⟩ => ⟨S64x2048x128, .f32⟩
  | .hbm, ⟨3, _⟩ => ⟨S64x2048x2048, .i1⟩
  | .hbm, ⟨4, _⟩ => ⟨S64x2048x2048, .i32⟩
  | .hbm, ⟨5, _⟩ => ⟨S64x2048x128, .f32⟩
  | .hbm, ⟨6, _⟩ => ⟨S64x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x2048, .i32⟩
  | .local _ .vmem, ⟨7, _⟩ => ⟨S1x512x2048, .i32⟩
  | .local _ .vmem, ⟨8, _⟩ => ⟨S1x512x128, .f32⟩
  | .local _ .vmem, ⟨9, _⟩ => ⟨S1x512x128, .f32⟩
  | .local _ .vmem, ⟨10, _⟩ => ⟨S1x512x2048, .f32⟩
  | .local _ .vmem, ⟨11, _⟩ => ⟨S1x512x2048, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S2048x128_p1_0_S128x2048 : S2048x128.Transposes [1, 0] S128x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x128_S1x512x128 : S512x128.ShapeCasts S1x512x128
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S64x2048x128.size a
  hwx0_0 : ∀ i : grid0.Coords, EltTy.bits .f32 = 32 ∨ (Rect.block (s := S64x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .f32 = 32 ∨ (Rect.block (s := S64x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S64x2048x128.size a
  hwx0_2 : ∀ i : grid0.Coords, EltTy.bits .f32 = 32 ∨ (Rect.block (s := S64x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x2048x2048.size a
  hwx0_3 : ∀ i : grid0.Coords, EltTy.bits .i32 = 32 ∨ (Rect.block (s := S64x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S64x2048x128.size a
  hwx0_4 : ∀ i : grid0.Coords, EltTy.bits .f32 = 32 ∨ (Rect.block (s := S64x2048x128) S1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S64x2048x2048.size a
  hwx0_5 : ∀ i : grid0.Coords, EltTy.bits .f32 = 32 ∨ (Rect.block (s := S64x2048x2048) S1x512x2048.size (cc0_transform_5 i) (hinb0_5 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x2048x128 : Shape := ⟨3, ![64, 2048, 128]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S64x2048x128, .f32⟩
  | .hbm, ⟨2, _⟩ => ⟨S64x2048x128, .f32⟩
  | .hbm, ⟨3, _⟩ => ⟨S64x2048x2048, .i1⟩
  | .hbm, ⟨4, _⟩ => ⟨S64x2048x2048, .f32⟩
  | .hbm, ⟨5, _⟩ => ⟨S_, .f32⟩
  | .hbm, ⟨6, _⟩ => ⟨S64x2048x2048, .f32⟩
  | .hbm, ⟨7, _⟩ => ⟨S64x2048x2048, .f32⟩
  | .hbm, ⟨8, _⟩ => ⟨S_, .f32⟩
  | .hbm, ⟨9, _⟩ => ⟨S_, .f32⟩
  | .hbm, ⟨10, _⟩ => ⟨S64x2048x2048, .f32⟩
  | .hbm, ⟨11, _⟩ => ⟨S64x2048x2048, .f32⟩
  | .hbm, ⟨12, _⟩ => ⟨S_, .f32⟩
  | .hbm, ⟨13, _⟩ => ⟨S64x2048, .f32⟩
  | .hbm, ⟨14, _⟩ => ⟨S_, .f32⟩
  | .hbm, ⟨15, _⟩ => ⟨S64x2048, .f32⟩
  | .hbm, ⟨16, _⟩ => ⟨S64x2048, .f32⟩
  | .hbm, ⟨17, _⟩ => ⟨S64x2048x1, .f32⟩
  | .hbm, ⟨18, _⟩ => ⟨S64x2048x2048, .f32⟩
  | .hbm, ⟨19, _⟩ => ⟨S64x2048x2048, .f32⟩
  | .hbm, ⟨20, _⟩ => ⟨S64x2048x2048, .f32⟩
  | .hbm, ⟨21, _⟩ => ⟨S_, .f32⟩
  | .hbm, ⟨22, _⟩ => ⟨S64x2048, .f32⟩
  | .hbm, ⟨23, _⟩ => ⟨S64x2048x1, .f32⟩
  | .hbm, ⟨24, _⟩ => ⟨S64x2048x2048, .f32⟩
  | .hbm, ⟨25, _⟩ => ⟨S64x2048x2048, .f32⟩
  | .hbm, ⟨26, _⟩ => ⟨S64x2048x128, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S64x2048x2048 : S_.BroadcastsInDim S64x2048x2048 (![] : Fin 0 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  dot_S64x2048x128_S64x2048x128_S64x2048x2048_2_2_1_1_0_0_wf : DotDims.WF S64x2048x128 S64x2048x128 S64x2048x2048 [2] [2] [1] [1] [0] [0]
  dot_S64x2048x2048_S64x2048x128_S64x2048x128_2_1_1_2_0_0_wf : DotDims.WF S64x2048x2048 S64x2048x128 S64x2048x128 [2] [1] [1] [2] [0] [0]

variable [Facts₀]

def dot_S64x2048x128_S64x2048x128_S64x2048x2048_2_2_1_1_0_0 : DotDims S64x2048x128 S64x2048x128 S64x2048x2048 where
  lhsContracting := [2]
  rhsContracting := [2]
  lhsNonContracting := [1]
  rhsNonContracting := [1]
  lhsBatch := [0]
  rhsBatch := [0]
  wf := dot_S64x2048x128_S64x2048x128_S64x2048x2048_2_2_1_1_0_0_wf
def dot_S64x2048x2048_S64x2048x128_S64x2048x128_2_1_1_2_0_0 : DotDims S64x2048x2048 S64x2048x128 S64x2048x128 where
  lhsContracting := [2]
  rhsContracting := [1]
  lhsNonContracting := [1]
  rhsNonContracting := [2]
  lhsBatch := [0]
  rhsBatch := [0]
  wf := dot_S64x2048x2048_S64x2048x128_S64x2048x128_2_1_1_2_0_0_wf

class Facts : Prop extends Facts₀ where

variable [Facts]
-- ==== Proof.Spec.lean ====
/-
  Scaled dot-product attention under a boolean mask, index by index over the extended reals.

  For batch `b`, query row `p` and key row `j` the score is `(Σ_d q[b,p,d] · k[b,j,d]) · scale` where the mask holds
  and the fill value where it does not. A row of scores `s` becomes the weights
  `w_j = exp (s_j − M) / Σ_k exp (s_k − M)` with `M` the greatest score of the row (the fold of `max` seeded at `−∞`),
  and the output is `Σ_j w_j · v[b,j,e]`. The scale, the fill and the seed are float words that both programs
  spell alike, so they stay words here and are never evaluated.
-/
import Idealize.ShloMosaic.PureOps.Ideal
import Idealize.ShloMosaic.Lib.ValueIdx

noncomputable section

namespace Cert.Attention

open Idealize.ShloMosaic Idealize.ShloMosaic.ValueIdx

/-- The shape of the queries, keys and values: batch × rows × features. -/
abbrev Sqkv : Shape := ⟨3, ![64, 2048, 128]⟩
/-- The shape of the mask and of the weights: batch × query rows × key rows. -/
abbrev Sw : Shape := ⟨3, ![64, 2048, 2048]⟩

/-- The greatest entry of a row, as the fold of `max` from the seed `−∞` (the float word `0xFF800000`). -/
def rowMax (s : Fin 2048 → EReal) : EReal :=
  (Finset.univ : Finset (Fin 2048)).fold max (Ideal.ofBits .f32 0xFF800000#32) s

/-- `exp (s_j − max s)`. -/
def rowExp (s : Fin 2048 → EReal) (j : Fin 2048) : EReal := Ideal.exp (s j - rowMax s)

/-- The softmax weight of entry `j` of the row `s`. -/
def weight (s : Fin 2048 → EReal) (j : Fin 2048) : EReal :=
  Ideal.div (rowExp s j) (∑ k : Fin 2048, rowExp s k)

/-- The masked, scaled score of query row `p` against key row `j` in batch `b`. -/
def score (q k : Sqkv.Idx → EReal) (msk : Sw.Idx → BitVec 1) (b : Fin 64) (p j : Fin 2048) : EReal :=
  Scalar.select (msk (ix3 b p j))
    ((∑ d : Fin 128, q (ix3 b p d) * k (ix3 b j d)) * Ideal.ofBits .f32 0x3DB504F3#32)
    (Ideal.ofBits .f32 0xF149F2CA#32)

/-- The attention weights, index by index. -/
def weights (q k : Sqkv.Idx → EReal) (msk : Sw.Idx → BitVec 1) : Sw.Idx → EReal :=
  fun i => weight (score q k msk (i 0) (i 1)) (i 2)

/-- The attention output, index by index: the weights of the row against the values' column. -/
def output (q k v : Sqkv.Idx → EReal) (msk : Sw.Idx → BitVec 1) : Sqkv.Idx → EReal :=
  fun i => ∑ j : Fin 2048, weight (score q k msk (i 0) (i 1)) j * v (ix3 (i 0) j (i 2))

/-- A fold of `max` is at least its seed, so taking `max` with the seed again changes nothing. -/
theorem max_seed_rowMax (s : Fin 2048 → EReal) : max (Ideal.ofBits .f32 0xFF800000#32) (rowMax s) = rowMax s :=
  max_eq_right ((Finset.le_fold_max _).mpr (Or.inl le_rfl))

/-- A one-bit word widened to 32 bits differs from zero exactly when the bit is set. -/
theorem ne_zero_of_widened (x : BitVec 1) : IntOp.cmpi .ne (x.setWidth 32) 0#32 = x := by
  by_cases h : x = 1#1
  · subst h; decide
  · have h0 := eq_zero_of_ne_one h; subst h0; decide

end Cert.Attention

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KernelBlock.lean ====
/-
  One grid point's work, read at an index.

  The body receives a block `Q` of 512 query rows, the batch's 2048 key rows `K` and value rows `V`, and the 512 × 2048
  block `M` of the widened mask. Its first product contracts the feature axis of `Q` against the transposed keys, so entry
  `(p, j)` is `Σ_d Q[p,d] · K[j,d]`; scaled and masked this is the block's score `bscore p j`. The lane maximum of a row is
  the fold of `max` over the row from `−∞`, the lane sum of the exponentials the row's sum, and both come back as a column
  repeated along the row; so the body's quotient at `(p, j)` is the softmax weight of the row `bscore p` at `j`, and its
  second product at `(p, e)` is `Σ_j weight_j · V[j,e]`. A change of float format is the identity on the extended reals.
-/
import proofs.«129280_j6837587935792_2_alg».proof.Proof.Gen.KernelIdeal.Skeleton
import proofs.«129280_j6837587935792_2_alg».proof.Proof.Spec
import proofs.«129280_j6837587935792_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx Cert.Attention Cert.Column

/-! ## The two matrix products as sums -/

/-- Which operand entries the first product multiplies at an output index and a contraction index. -/
theorem qk_lhs0 (i : S512x2048.Idx) (q : dot_S512x128_S128x2048_S512x2048_1_0_0_1_n_n.contr.Idx) : (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide),
    dif_pos (show (0 : Fin S512x128.rank) ∈ dot_S512x128_S128x2048_S512x2048_1_0_0_1_n_n.lhsNonContracting by decide)]
  rfl
theorem qk_lhs1 (i : S512x2048.Idx) (q : dot_S512x128_S128x2048_S512x2048_1_0_0_1_n_n.contr.Idx) : (dot_S512x128_S128x2048_S512x2048_1_0_0_1_n_n.lhsIdx i q 1).val = (q ⟨0, by decide⟩).val :=
  dot_S512x128_S128x2048_S512x2048_1_0_0_1_n_n.lhsIdx_val_of_single rfl i q
theorem qk_rhs0 (i : S512x2048.Idx) (q : dot_S512x128_S128x2048_S512x2048_1_0_0_1_n_n.contr.Idx) : (dot_S512x128_S128x2048_S512x2048_1_0_0_1_n_n.rhsIdx i q 0).val = (q ⟨0, by decide⟩).val :=
  dot_S512x128_S128x2048_S512x2048_1_0_0_1_n_n.rhsIdx_val_of_single rfl i q
theorem qk_rhs1 (i : S512x2048.Idx) (q : dot_S512x128_S128x2048_S512x2048_1_0_0_1_n_n.contr.Idx) : (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide),
    dif_pos (show (1 : Fin S128x2048.rank) ∈ dot_S512x128_S128x2048_S512x2048_1_0_0_1_n_n.rhsNonContracting by decide)]
  rfl

/-- Queries against transposed keys: entry `(p, j)` sums over the feature axis. -/
theorem qk_apply (A : FVec Ideal S512x128 .bf16) (B : FVec Ideal S128x2048 .bf16) (p : Fin 512) (j : Fin 2048) :
    matmul dot_S512x128_S128x2048_S512x2048_1_0_0_1_n_n none A B (constant (F := Ideal) S512x2048 .f32 0x00000000#32) (ix2 p j)
      = ∑ d : Fin 128, A (ix2 p d) * B (ix2 d j) := by
  refine (Ideal.matmul_constant_zero_apply dot_S512x128_S128x2048_S512x2048_1_0_0_1_n_n none A B (ix2 p j)).trans ?_
  rw [← Equiv.sum_comp (contrEquiv1 dot_S512x128_S128x2048_S512x2048_1_0_0_1_n_n 128 rfl rfl).symm]
  refine Finset.sum_congr rfl fun d _ => ?_
  have hd := contrEquiv1_symm_val dot_S512x128_S128x2048_S512x2048_1_0_0_1_n_n 128 rfl rfl d
  have el : dot_S512x128_S128x2048_S512x2048_1_0_0_1_n_n.lhsIdx (ix2 p j) ((contrEquiv1 dot_S512x128_S128x2048_S512x2048_1_0_0_1_n_n 128 rfl rfl).symm d) = ix2 p d :=
    funext fun a => Fin.ext (by
      match a with
      | ⟨0, _⟩ => exact qk_lhs0 _ _
      | ⟨1, _⟩ => exact (qk_lhs1 _ _).trans hd)
  have er : dot_S512x128_S128x2048_S512x2048_1_0_0_1_n_n.rhsIdx (ix2 p j) ((contrEquiv1 dot_S512x128_S128x2048_S512x2048_1_0_0_1_n_n 128 rfl rfl).symm d) = ix2 d j :=
    funext fun a => Fin.ext (by
      match a with
      | ⟨0, _⟩ => exact (qk_rhs0 _ _).trans hd
      | ⟨1, _⟩ => exact qk_rhs1 _ _)
  rw [el, er]

/-- Which operand entries the second product multiplies at an output index and a contraction index. -/
theorem pv_lhs0 (i : S512x128.Idx) (q : dot_S512x2048_S2048x128_S512x128_1_0_0_1_n_n.contr.Idx) : (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
theorem pv_lhs1 (i : S512x128.Idx) (q : dot_S512x2048_S2048x128_S512x128_1_0_0_1_n_n.contr.Idx) : (dot_S512x2048_S2048x128_S512x128_1_0_0_1_n_n.lhsIdx i q 1).val = (q ⟨0, by decide⟩).val :=
  dot_S512x2048_S2048x128_S512x128_1_0_0_1_n_n.lhsIdx_val_of_single rfl i q
theorem pv_rhs0 (i : S512x128.Idx) (q : dot_S512x2048_S2048x128_S512x128_1_0_0_1_n_n.contr.Idx) : (dot_S512x2048_S2048x128_S512x128_1_0_0_1_n_n.rhsIdx i q 0).val = (q ⟨0, by decide⟩).val :=
  dot_S512x2048_S2048x128_S512x128_1_0_0_1_n_n.rhsIdx_val_of_single rfl i q
theorem pv_rhs1 (i : S512x128.Idx) (q : dot_S512x2048_S2048x128_S512x128_1_0_0_1_n_n.contr.Idx) : (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- Weights against values: entry `(p, e)` sums over the key axis. -/
theorem pv_apply (A : FVec Ideal S512x2048 .bf16) (B : FVec Ideal S2048x128 .bf16) (p : Fin 512) (e : Fin 128) :
    matmul dot_S512x2048_S2048x128_S512x128_1_0_0_1_n_n none A B (constant (F := Ideal) S512x128 .f32 0x00000000#32) (ix2 p e)
      = ∑ j : Fin 2048, A (ix2 p j) * B (ix2 j e) := by
  refine (Ideal.matmul_constant_zero_apply dot_S512x2048_S2048x128_S512x128_1_0_0_1_n_n none A B (ix2 p e)).trans ?_
  rw [← Equiv.sum_comp (contrEquiv1 dot_S512x2048_S2048x128_S512x128_1_0_0_1_n_n 2048 rfl rfl).symm]
  refine Finset.sum_congr rfl fun j _ => ?_
  have hj := contrEquiv1_symm_val dot_S512x2048_S2048x128_S512x128_1_0_0_1_n_n 2048 rfl rfl j
  have el : dot_S512x2048_S2048x128_S512x128_1_0_0_1_n_n.lhsIdx (ix2 p e) ((contrEquiv1 dot_S512x2048_S2048x128_S512x128_1_0_0_1_n_n 2048 rfl rfl).symm j) = ix2 p j :=
    funext fun a => Fin.ext (by
      match a with
      | ⟨0, _⟩ => exact pv_lhs0 _ _
      | ⟨1, _⟩ => exact (pv_lhs1 _ _).trans hj)
  have er : dot_S512x2048_S2048x128_S512x128_1_0_0_1_n_n.rhsIdx (ix2 p e) ((contrEquiv1 dot_S512x2048_S2048x128_S512x128_1_0_0_1_n_n 2048 rfl rfl).symm j) = ix2 j e :=
    funext fun a => Fin.ext (by
      match a with
      | ⟨0, _⟩ => exact (pv_rhs0 _ _).trans hj
      | ⟨1, _⟩ => exact pv_rhs1 _ _)
  rw [el, er]

/-! ## The two lane reductions over a row -/

/-- Row `p` with the lane coordinate `j` put back is `(p, j)`. -/
theorem lane_lift (p : Fin 512) (j : Fin 2048) : reduces_S512x2048_S512.lift (ix1 p) j = ix2 p j :=
  funext fun a => Fin.ext (by match a with | ⟨0, _⟩ => rfl | ⟨1, _⟩ => rfl)

/-- The lane maximum of row `p`: the greatest entry of the row, from the seed `−∞`. -/
theorem laneMax_apply (X : FVec Ideal S512x2048 .f32) (p : Fin 512) :
    multiReduction .maximumf [1] S512 X 0xFF800000#32 reduces_S512x2048_S512 (.inl rfl) rfl (ix1 p)
      = rowMax (fun j => X (ix2 p j)) := by
  refine (Ideal.multiReduction_maximumf_single X 0xFF800000#32 reduces_S512x2048_S512 (.inl rfl) rfl (ix1 p)).trans ?_
  have hf : (X ∘ reduces_S512x2048_S512.lift (ix1 p)) = fun j : Fin 2048 => X (ix2 p j) :=
    funext fun j => congrArg X (lane_lift p j)
  rw [hf]
  rfl

/-- The lane sum of row `p`. -/
theorem laneSum_apply (X : FVec Ideal S512x2048 .f32) (p : Fin 512) :
    multiReduction .add [1] S512 X 0x00000000#32 reduces_S512x2048_S512 (.inl rfl) rfl (ix1 p)
      = ∑ j : Fin 2048, X (ix2 p j) := by
  refine (Ideal.multiReduction_add_single X 0x00000000#32 reduces_S512x2048_S512 (.inl rfl) rfl (ix1 p)).trans ?_
  exact Finset.sum_congr rfl fun j _ => congrArg X (lane_lift p j)

/-- A per-row value viewed as a column and repeated along the row reads the row's value. -/
theorem column_apply (y : FVec Ideal S512 .f32) (p : Fin 512) (j : Fin 2048) :
    broadcastTo S512x2048 (shapeCast S512x1 y shapeCasts_S512_S512x1) broadcasts_S512x1_S512x2048 (ix2 p j) = y (ix1 p) :=
  (broadcastTo_a1_ab_apply _ broadcasts_S512x1_S512x2048 p j).trans
    (shapeCast_a_a1_apply y shapeCasts_S512_S512x1 p (0 : Fin 1))

/-! ## The body's values -/

variable (Q : Vec Ideal S1x512x128 .f32) (K V : Vec Ideal S1x2048x128 .f32) (M : Vec Ideal S1x512x2048 .i32)

/-- The block's score of query row `p` against key row `j`. -/
def bscore (p : Fin 512) (j : Fin 2048) : EReal :=
  Scalar.select (IntOp.cmpi .ne (M (ix3 (0 : Fin 1) p j)) 0#32)
    ((∑ d : Fin 128, Q (ix3 (0 : Fin 1) p d) * K (ix3 (0 : Fin 1) j d)) * Ideal.ofBits .f32 0x3DB504F3#32)
    (Ideal.ofBits .f32 0xF149F2CA#32)

/-- The transposed keys at `(d, j)` are the key block at `(j, d)`. -/
theorem keysT_apply (K : Vec Ideal S1x2048x128 .f32) (d : Fin 128) (j : Fin 2048) :
    transpose S128x2048 [1, 0] (truncf (F := Ideal) .bf16 (shapeCast S2048x128 K shapeCasts_S1x2048x128_S2048x128) bitsLt_bf16_f32)
        transposes_S2048x128_p1_0_S128x2048 (ix2 d j) = K (ix3 (0 : Fin 1) j d) := by
  rw [transpose_ix2_apply]
  exact shapeCast_1ab_ab_apply K shapeCasts_S1x2048x128_S2048x128 j d

/-- The block's scores of row `p` are the arrays' scores of row `r` of batch `b` when the query block's row `p` is the
    queries' row `r`, the key block is the batch's keys, and the mask block's row `p` is the mask's row `r` widened. -/
theorem bscore_congr (q k : Sqkv.Idx → EReal) (msk : Sw.Idx → BitVec 1) (p : Fin 512) (b : Fin 64) (r : Fin 2048)
    (hQ : ∀ d : Fin 128, Q (ix3 (0 : Fin 1) p d) = q (ix3 b r d))
    (hK : ∀ (j : Fin 2048) (d : Fin 128), K (ix3 (0 : Fin 1) j d) = k (ix3 b j d))
    (hM : ∀ j : Fin 2048, M (ix3 (0 : Fin 1) p j) = (msk (ix3 b r j)).setWidth 32) :
    bscore Q K M p = score q k msk b r := by
  funext j
  have hS : (∑ d : Fin 128, Q (ix3 (0 : Fin 1) p d) * K (ix3 (0 : Fin 1) j d)) = ∑ d : Fin 128, q (ix3 b r d) * k (ix3 b j d) :=
    Finset.sum_congr rfl fun d _ => by rw [hQ d, hK j d]
  unfold bscore score
  rw [hM j, hS, ne_zero_of_widened]

/-- The masked scaled product as the body computes it. -/
def masked : FVec Ideal S512x2048 .f32 :=
  select (cmpi .ne (shapeCast S512x2048 M shapeCasts_S1x512x2048_S512x2048) (constantI S512x2048 32 0#32))
    (mulf (matmul dot_S512x128_S128x2048_S512x2048_1_0_0_1_n_n none
        (truncf .bf16 (shapeCast S512x128 Q shapeCasts_S1x512x128_S512x128) bitsLt_bf16_f32)
        (transpose S128x2048 [1, 0] (truncf .bf16 (shapeCast S2048x128 K shapeCasts_S1x2048x128_S2048x128) bitsLt_bf16_f32) transposes_S2048x128_p1_0_S128x2048)
        (constant S512x2048 .f32 0x00000000#32))
      (broadcast S512x2048 (Scalar.ofBits .f32 0x3DB504F3#32)))
    (broadcast S512x2048 (Scalar.ofBits .f32 0xF149F2CA#32))

/-- Entry `(p, j)` of the masked scaled product is the block's score. -/
theorem masked_apply (p : Fin 512) (j : Fin 2048) : masked Q K M (ix2 p j) = bscore Q K M p j := by
  have hm : shapeCast S512x2048 M shapeCasts_S1x512x2048_S512x2048 (ix2 p j) = M (ix3 (0 : Fin 1) p j) :=
    shapeCast_1ab_ab_apply M shapeCasts_S1x512x2048_S512x2048 p j
  have hq : ∀ d : Fin 128, shapeCast S512x128 Q shapeCasts_S1x512x128_S512x128 (ix2 p d) = Q (ix3 (0 : Fin 1) p d) :=
    fun d => shapeCast_1ab_ab_apply Q shapeCasts_S1x512x128_S512x128 p d
  have hk : ∀ d : Fin 128, transpose S128x2048 [1, 0] (truncf (F := Ideal) .bf16 (shapeCast S2048x128 K shapeCasts_S1x2048x128_S2048x128) bitsLt_bf16_f32) transposes_S2048x128_p1_0_S128x2048 (ix2 d j)
      = K (ix3 (0 : Fin 1) j d) := fun d => keysT_apply K d j
  show Scalar.select (IntOp.cmpi .ne (shapeCast S512x2048 M shapeCasts_S1x512x2048_S512x2048 (ix2 p j)) 0#32)
      (matmul dot_S512x128_S128x2048_S512x2048_1_0_0_1_n_n none
          (truncf .bf16 (shapeCast S512x128 Q shapeCasts_S1x512x128_S512x128) bitsLt_bf16_f32)
          (transpose S128x2048 [1, 0] (truncf .bf16 (shapeCast S2048x128 K shapeCasts_S1x2048x128_S2048x128) bitsLt_bf16_f32) transposes_S2048x128_p1_0_S128x2048)
          (constant (F := Ideal) S512x2048 .f32 0x00000000#32) (ix2 p j) * Ideal.ofBits .f32 0x3DB504F3#32)
      (Ideal.ofBits .f32 0xF149F2CA#32) = _
  rw [hm, qk_apply]
  unfold bscore
  congr 2
  refine Finset.sum_congr rfl fun d _ => ?_
  rw [hk d]
  exact congrArg (· * _) (hq d)

/-- The body's quotient is the softmax of the masked scaled product, row by row. -/
theorem pay2_eq : k0_pay2 Q K M =
    divf (exp (subf (masked Q K M) (broadcastTo S512x2048 (shapeCast S512x1
        (multiReduction .maximumf [1] S512 (masked Q K M) 0xFF800000#32 reduces_S512x2048_S512 (.inl rfl) rfl) shapeCasts_S512_S512x1) broadcasts_S512x1_S512x2048)))
      (broadcastTo S512x2048 (shapeCast S512x1
        (multiReduction .add [1] S512 (exp (subf (masked Q K M) (broadcastTo S512x2048 (shapeCast S512x1
          (multiReduction .maximumf [1] S512 (masked Q K M) 0xFF800000#32 reduces_S512x2048_S512 (.inl rfl) rfl) shapeCasts_S512_S512x1) broadcasts_S512x1_S512x2048)))
          0x00000000#32 reduces_S512x2048_S512 (.inl rfl) rfl) shapeCasts_S512_S512x1) broadcasts_S512x1_S512x2048) := rfl

/-- The exponentials the body takes, at `(p, j)`. -/
theorem expo_apply (p : Fin 512) (j : Fin 2048) :
    exp (subf (masked Q K M) (broadcastTo S512x2048 (shapeCast S512x1
        (multiReduction .maximumf [1] S512 (masked Q K M) 0xFF800000#32 reduces_S512x2048_S512 (.inl rfl) rfl) shapeCasts_S512_S512x1) broadcasts_S512x1_S512x2048)) (ix2 p j)
      = rowExp (bscore Q K M p) j := by
  show Ideal.exp (masked Q K M (ix2 p j) - broadcastTo S512x2048 (shapeCast S512x1
        (multiReduction .maximumf [1] S512 (masked Q K M) 0xFF800000#32 reduces_S512x2048_S512 (.inl rfl) rfl) shapeCasts_S512_S512x1) broadcasts_S512x1_S512x2048 (ix2 p j)) = _
  rw [column_apply, laneMax_apply, masked_apply]
  have hrow : (fun j' : Fin 2048 => masked Q K M (ix2 p j')) = bscore Q K M p := funext fun j' => masked_apply Q K M p j'
  rw [hrow]
  rfl

/-- The body's quotient at `(p, j)` is the softmax weight of the block's row of scores. -/
theorem pay2_apply (p : Fin 512) (j : Fin 2048) : k0_pay2 Q K M (ix2 p j) = weight (bscore Q K M p) j := by
  rw [pay2_eq]
  show Ideal.div (exp (subf (masked Q K M) _) (ix2 p j)) (broadcastTo S512x2048 (shapeCast S512x1 _ shapeCasts_S512_S512x1) broadcasts_S512x1_S512x2048 (ix2 p j)) = _
  rw [expo_apply, column_apply, laneSum_apply]
  have hrow : (fun j' : Fin 2048 => exp (subf (masked Q K M) (broadcastTo S512x2048 (shapeCast S512x1
        (multiReduction .maximumf [1] S512 (masked Q K M) 0xFF800000#32 reduces_S512x2048_S512 (.inl rfl) rfl) shapeCasts_S512_S512x1) broadcasts_S512x1_S512x2048)) (ix2 p j'))
      = rowExp (bscore Q K M p) := funext fun j' => expo_apply Q K M p j'
  rw [hrow]
  rfl

/-- The body's second product at `(p, e)`: the row's weights against the values' column `e`. -/
theorem pay4_apply (p : Fin 512) (e : Fin 128) :
    k0_pay4 Q K V M (ix2 p e) = ∑ j : Fin 2048, weight (bscore Q K M p) j * V (ix3 (0 : Fin 1) j e) := by
  show matmul dot_S512x2048_S2048x128_S512x128_1_0_0_1_n_n none (truncf .bf16 (k0_pay2 Q K M) bitsLt_bf16_f32)
      (truncf .bf16 (shapeCast S2048x128 V shapeCasts_S1x2048x128_S2048x128) bitsLt_bf16_f32)
      (constant (F := Ideal) S512x128 .f32 0x00000000#32) (ix2 p e) = _
  rw [pv_apply]
  refine Finset.sum_congr rfl fun j _ => ?_
  show k0_pay2 Q K M (ix2 p j) * shapeCast S2048x128 V shapeCasts_S1x2048x128_S2048x128 (ix2 j e) = _
  rw [pay2_apply, shapeCast_1ab_ab_apply V shapeCasts_S1x2048x128_S2048x128 j e]

end Cert.KernelIdeal.Block

end
-- ==== Proof.Whole.lean ====
/-
  From the blocks to the whole arrays.

  The grid has 64 × 4 points; point `t` is batch `b = t / 4` and query block `t % 4`. At that point the query and mask
  windows hold rows `512 · (t % 4) … + 511` of batch `b`, the key and value windows the whole of batch `b`, and the two
  output windows are written back to the same rows of batch `b`. So the block's score of its row `p` is the array's
  score of row `r = 512 · (t % 4) + p` in batch `b` (the widened mask word differs from zero exactly where the mask
  bit is set), what the point writes back is the block of the specification's arrays at `(b, r, ·)`, and since every
  `(b, r)` lies in the block of the point `4 b + r / 512`, the two result arrays end as the specification's.
-/
import proofs.«129280_j6837587935792_2_alg».proof.Proof.Gen.KernelIdeal.Value
import proofs.«129280_j6837587935792_2_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block
open Idealize.ShloMosaic.ValueIdx Cert.Attention

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: every window sits in the batch the outputs are written to, the query and
    mask windows at the outputs' row block, the key and value windows at the batch's first row, nothing moves along the
    last axis; and the outputs' batch and row block are the point's quotient and remainder by 4. -/
theorem idx_facts : ∀ t : Fin cfg0.N,
    win0_0.index t (0 : Fin 3) = win0_5.index t (0 : Fin 3) ∧ win0_0.index t (1 : Fin 3) = win0_5.index t (1 : Fin 3)
      ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
      ∧ win0_3.index t (2 : Fin 3) = 0
    ∧ win0_4.index t (0 : Fin 3) = win0_5.index t (0 : Fin 3) ∧ win0_4.index t (1 : Fin 3) = win0_5.index t (1 : Fin 3)
      ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-! ## The input windows' blocks, read off their arrays -/

/-- The query window's block at point `t`: rows of batch `b` from the point's row block. -/
theorem iblk0_apply (c : Dev nD) (t : Fin cfg0.N) (p : Fin 512) (d : Fin 128) (b : Fin 64) (r : Fin 2048)
    (hb : win0_5.index t (0 : Fin 3) = b.val) (hr : win0_5.index t (1 : Fin 3) * 512 + p.val = r.val) :
    (iblk m c 0 t : Vec Ideal S1x512x128 .f32) (ix3 (0 : Fin 1) p d)
      = (V m c main_arg0 : S64x2048x128.Idx → EReal) (ix3 b r d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * p.val = r.val; omega
  | ⟨2, _⟩ => show win0_0.index t (2 : Fin 3) * 128 + 1 * d.val = d.val; omega

/-- The key window's block at point `t`: all rows of batch `b`. -/
theorem iblk1_apply (c : Dev nD) (t : Fin cfg0.N) (j : Fin 2048) (d : Fin 128) (b : Fin 64)
    (hb : win0_5.index t (0 : Fin 3) = b.val) :
    (iblk m c 1 t : Vec Ideal S1x2048x128 .f32) (ix3 (0 : Fin 1) j d)
      = (V m c main_arg1 : S64x2048x128.Idx → EReal) (ix3 b j d) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 128 + 1 * d.val = d.val; omega

/-- The value window's block at point `t`: all rows of batch `b`. -/
theorem iblk2_apply (c : Dev nD) (t : Fin cfg0.N) (j : Fin 2048) (e : Fin 128) (b : Fin 64)
    (hb : win0_5.index t (0 : Fin 3) = b.val) :
    (iblk m c 2 t : Vec Ideal S1x2048x128 .f32) (ix3 (0 : Fin 1) j e)
      = (V m c main_arg2 : S64x2048x128.Idx → EReal) (ix3 b j e) := by
  obtain ⟨-, -, -, -, -, -, e0, e1, e2, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * 0 = b.val; omega
  | ⟨1, _⟩ => show win0_2.index t (1 : Fin 3) * 2048 + 1 * j.val = j.val; omega
  | ⟨2, _⟩ => show win0_2.index t (2 : Fin 3) * 128 + 1 * e.val = e.val; omega

/-- The array the mask window stages: the mask, each bit widened to a 32-bit word before the region. -/
theorem V_mask (c : Dev nD) : (V m c main_v0 : S64x2048x2048.Idx → BitVec 32)
    = extui 32 (m ((c : Thread nD τ).loc main_arg3)) natLt_1_32 := by
  dsimp only [Gen.V, Gen.hostOps0]
  after_results

/-- The mask window's block at point `t`: the widened mask bits of batch `b`'s rows from the point's row block. -/
theorem iblk3_apply (c : Dev nD) (t : Fin cfg0.N) (p : Fin 512) (j : Fin 2048) (b : Fin 64) (r : Fin 2048)
    (hb : win0_5.index t (0 : Fin 3) = b.val) (hr : win0_5.index t (1 : Fin 3) * 512 + p.val = r.val) :
    (iblk m c 3 t : Vec Ideal S1x512x2048 .i32) (ix3 (0 : Fin 1) p j)
      = ((m ((c : Thread nD τ).loc main_arg3) : S64x2048x2048.Idx → BitVec 1) (ix3 b r j)).setWidth 32 := by
  obtain ⟨-, -, -, -, -, -, -, -, -, e0, e1, e2, -⟩ := idx_facts t
  have hV : (iblk m c 3 t : Vec Ideal S1x512x2048 .i32) (ix3 (0 : Fin 1) p j)
      = (V m c main_v0 : S64x2048x2048.Idx → BitVec 32) (ix3 b r j) := by
    unfold iblk
    rw [View.read_apply]
    show V m c main_v0 _ = V m c main_v0 _
    congr 1
    funext a
    apply Fin.ext
    match a with
    | ⟨0, _⟩ => show win0_3.index t (0 : Fin 3) * 1 + 1 * 0 = b.val; omega
    | ⟨1, _⟩ => show win0_3.index t (1 : Fin 3) * 512 + 1 * p.val = r.val; omega
    | ⟨2, _⟩ => show win0_3.index t (2 : Fin 3) * 2048 + 1 * j.val = j.val; omega
  rw [hV, V_mask]
  rfl

/-! ## The block's scores are the arrays' -/

/-- Row `p` of point `t`'s block scores as row `r` of batch `b` does. -/
theorem bscore_eq (c : Dev nD) (t : Fin cfg0.N) (p : Fin 512) (b : Fin 64) (r : Fin 2048)
    (hb : win0_5.index t (0 : Fin 3) = b.val) (hr : win0_5.index t (1 : Fin 3) * 512 + p.val = r.val) :
    bscore (iblk m c 0 t) (iblk m c 1 t) (iblk m c 3 t) p
      = score (V m c main_arg0) (V m c main_arg1) (m ((c : Thread nD τ).loc main_arg3)) b r :=
  bscore_congr (iblk m c 0 t) (iblk m c 1 t) (iblk m c 3 t) (V m c main_arg0) (V m c main_arg1)
    (m ((c : Thread nD τ).loc main_arg3)) p b r
    (fun d => iblk0_apply m c t p d b r hb hr) (fun j d => iblk1_apply m c t j d b hb)
    (fun j => iblk3_apply m c t p j b r hb hr)

/-! ## What a point writes back -/

/-- Where point `t`'s output blocks sit: batch `b`, rows from the point's row block. -/
theorem emb5 (t : Fin cfg0.N) (p : Fin 512) (j : Fin 2048) (b : Fin 64) (r : Fin 2048)
    (hb : win0_5.index t (0 : Fin 3) = b.val) (hr : win0_5.index t (1 : Fin 3) * 512 + p.val = r.val) :
    ((cfg0.win 5).blk t).view.emb (ix3 (0 : Fin 1) p j : S1x512x2048.Idx) = (ix3 b r j : S64x2048x2048.Idx) := by
  obtain ⟨-, -, -, -, -, -, -, -, -, -, -, -, -, -, -, -, -, e2⟩ := idx_facts t
  funext a
  apply Fin.ext
  match a with
  | ⟨0, _⟩ => show win0_5.index t (0 : Fin 3) * 1 + 1 * 0 = b.val; omega
  | ⟨1, _⟩ => show win0_5.index t (1 : Fin 3) * 512 + 1 * p.val = r.val; omega
  | ⟨2, _⟩ => show win0_5.index t (2 : Fin 3) * 2048 + 1 * j.val = j.val; omega

theorem emb4 (t : Fin cfg0.N) (p : Fin 512) (e : Fin 128) (b : Fin 64) (r : Fin 2048)
    (hb : win0_5.index t (0 : Fin 3) = b.val) (hr : win0_5.index t (1 : Fin 3) * 512 + p.val = r.val) :
    ((cfg0.win 4).blk t).view.emb (ix3 (0 : Fin 1) p e : S1x512x128.Idx) = (ix3 b r e : S64x2048x128.Idx) := by
  obtain ⟨-, -, -, -, -, -, -, -, -, -, -, -, e0, e1, e2, -⟩ := idx_facts t
  funext a
  apply Fin.ext
  match a with
  | ⟨0, _⟩ => show win0_4.index t (0 : Fin 3) * 1 + 1 * 0 = b.val; omega
  | ⟨1, _⟩ => show win0_4.index t (1 : Fin 3) * 512 + 1 * p.val = r.val; omega
  | ⟨2, _⟩ => show win0_4.index t (2 : Fin 3) * 128 + 1 * e.val = e.val; omega

/-- The arrays the specification is read at: the arguments as the region finds them. -/
abbrev qA (c : Dev nD) : S64x2048x128.Idx → EReal := V m c main_arg0
abbrev kA (c : Dev nD) : S64x2048x128.Idx → EReal := V m c main_arg1
abbrev vA (c : Dev nD) : S64x2048x128.Idx → EReal := V m c main_arg2
abbrev mA (c : Dev nD) : S64x2048x2048.Idx → BitVec 1 := m ((c : Thread nD τ).loc main_arg3)

/-- The weights' buffer after the body at point `t`, entry by entry. -/
theorem block5_apply (c : Dev nD) (t : Fin cfg0.N) (y : S1x512x2048.Idx) :
    out0_5 (iblk m c 0 t) (iblk m c 1 t) (iblk m c 2 t) (iblk m c 3 t) y
      = weights (qA m c) (kA m c) (mA m c) (((cfg0.win 5).blk t).view.emb y) := by
  obtain ⟨u, p, j, rfl⟩ : ∃ (u : Fin 1) (p : Fin 512) (j : Fin 2048), y = ix3 u p j := ⟨y 0, y 1, y 2, eq_ix3 y⟩
  obtain rfl : u = 0 := Subsingleton.elim _ _
  have hf := idx_facts t
  have hlt : t.val < 256 := by have := t.isLt; have hN : cfg0.N = 256 := N_0; omega
  have e50 : win0_5.index t (0 : Fin 3) = t.val / 4 := hf.2.2.2.2.2.2.2.2.2.2.2.2.2.2.2.1
  have e51 : win0_5.index t (1 : Fin 3) = t.val % 4 := hf.2.2.2.2.2.2.2.2.2.2.2.2.2.2.2.2.1
  let b : Fin 64 := ⟨t.val / 4, by omega⟩
  let r : Fin 2048 := ⟨t.val % 4 * 512 + p.val, by have := p.isLt; omega⟩
  have hb : win0_5.index t (0 : Fin 3) = b.val := e50
  have hr : win0_5.index t (1 : Fin 3) * 512 + p.val = r.val := by rw [e51]
  unfold out0_5
  rw [Value.canon5_eq]
  simp only [View.ld_unit_zero (S := S1x512x128) hz, View.ld_unit_zero (S := S1x2048x128) hz, View.ld_unit_zero (S := S1x512x2048) hz]
  have hix : ix5_0 (ix3 (0 : Fin 1) p j) = ix2 p j :=
    funext fun a => Fin.ext (by match a with | ⟨0, _⟩ => rfl | ⟨1, _⟩ => rfl)
  show k0_pay2 (iblk m c 0 t) (iblk m c 1 t) (iblk m c 3 t) (ix5_0 (ix3 (0 : Fin 1) p j)) = _
  rw [hix, emb5 t p j b r hb hr]
  refine (pay2_apply (iblk m c 0 t) (iblk m c 1 t) (iblk m c 3 t) p j).trans ?_
  rw [bscore_eq m c t p b r hb hr]
  rfl

/-- The output's buffer after the body at point `t`, entry by entry. -/
theorem block4_apply (c : Dev nD) (t : Fin cfg0.N) (y : S1x512x128.Idx) :
    out0_4 (iblk m c 0 t) (iblk m c 1 t) (iblk m c 2 t) (iblk m c 3 t) y
      = output (qA m c) (kA m c) (vA m c) (mA m c) (((cfg0.win 4).blk t).view.emb y) := by
  obtain ⟨u, p, e, rfl⟩ : ∃ (u : Fin 1) (p : Fin 512) (e : Fin 128), y = ix3 u p e := ⟨y 0, y 1, y 2, eq_ix3 y⟩
  obtain rfl : u = 0 := Subsingleton.elim _ _
  have hf := idx_facts t
  have hlt : t.val < 256 := by have := t.isLt; have hN : cfg0.N = 256 := N_0; omega
  have e50 : win0_5.index t (0 : Fin 3) = t.val / 4 := hf.2.2.2.2.2.2.2.2.2.2.2.2.2.2.2.1
  have e51 : win0_5.index t (1 : Fin 3) = t.val % 4 := hf.2.2.2.2.2.2.2.2.2.2.2.2.2.2.2.2.1
  let b : Fin 64 := ⟨t.val / 4, by omega⟩
  let r : Fin 2048 := ⟨t.val % 4 * 512 + p.val, by have := p.isLt; omega⟩
  have hb : win0_5.index t (0 : Fin 3) = b.val := e50
  have hr : win0_5.index t (1 : Fin 3) * 512 + p.val = r.val := by rw [e51]
  unfold out0_4
  rw [Value.canon4_eq]
  simp only [View.ld_unit_zero (S := S1x512x128) hz, View.ld_unit_zero (S := S1x2048x128) hz, View.ld_unit_zero (S := S1x512x2048) hz]
  have hix : ix4_0 (ix3 (0 : Fin 1) p e) = ix2 p e :=
    funext fun a => Fin.ext (by match a with | ⟨0, _⟩ => rfl | ⟨1, _⟩ => rfl)
  show k0_pay4 (iblk m c 0 t) (iblk m c 1 t) (iblk m c 2 t) (iblk m c 3 t) (ix4_0 (ix3 (0 : Fin 1) p e)) = _
  rw [hix, emb4 t p e b r hb hr]
  refine (pay4_apply (iblk m c 0 t) (iblk m c 1 t) (iblk m c 2 t) (iblk m c 3 t) p e).trans ?_
  rw [bscore_eq m c t p b r hb hr]
  refine Finset.sum_congr rfl fun j _ => ?_
  rw [iblk2_apply m c t j e b hb]

/-- What point `t` writes back to the weights' array is its block of the specification's weights. -/
theorem flushed5_eq (c : Dev nD) (t : Fin cfg0.N) :
    (dats m 0 c).flushed 5 t = ((cfg0.win 5).blk t).view.read (Elt Ideal) (weights (qA m c) (kA m c) (mA m c)) := by
  rw [Value.flushed5]
  funext y
  exact block5_apply m c t y

/-- What point `t` writes back to the output's array is its block of the specification's output. -/
theorem flushed4_eq (c : Dev nD) (t : Fin cfg0.N) :
    (dats m 0 c).flushed 4 t = ((cfg0.win 4).blk t).view.read (Elt Ideal) (output (qA m c) (kA m c) (vA m c) (mA m c)) := by
  rw [Value.flushed4]
  funext y
  exact block4_apply m c t y

/-! ## Every index is written -/

theorem mem_blk5 (t : Fin cfg0.N) (i : S64x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v1_1).slice (win0_5.rect t)).set ↔ _
  rw [View.set_slice_whole, Rect.mem_set_unit]
  exact Iff.rfl

theorem mem_blk4 (t : Fin cfg0.N) (i : S64x2048x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v1_0).slice (win0_4.rect t)).set ↔ _
  rw [View.set_slice_whole, Rect.mem_set_unit]
  exact Iff.rfl

/-- Row `r` of batch `b` lies in the block of the point `4 b + r / 512`. -/
theorem cover5 (i : S64x2048x2048.Idx) : ∃ t : Fin cfg0.N, (cfg0.win 5).flush t = true ∧ i ∈ ((cfg0.win 5).blk t).view.set := by
  have h0 : (i 0).val < 64 := (i 0).isLt
  have h1 : (i 1).val < 2048 := (i 1).isLt
  have h2 : (i 2).val < 2048 := (i 2).isLt
  have hN : cfg0.N = 256 := N_0
  let t : Fin cfg0.N := ⟨(i 0).val * 4 + (i 1).val / 512, by rw [hN]; omega⟩
  have hf := idx_facts t
  have e50 : win0_5.index t (0 : Fin 3) = t.val / 4 := hf.2.2.2.2.2.2.2.2.2.2.2.2.2.2.2.1
  have e51 : win0_5.index t (1 : Fin 3) = t.val % 4 := hf.2.2.2.2.2.2.2.2.2.2.2.2.2.2.2.2.1
  have e52 : win0_5.index t (2 : Fin 3) = 0 := hf.2.2.2.2.2.2.2.2.2.2.2.2.2.2.2.2.2
  have ht : t.val = (i 0).val * 4 + (i 1).val / 512 := rfl
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

theorem cover4 (i : S64x2048x128.Idx) : ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 128 := (i 2).isLt
  have hN : cfg0.N = 256 := N_0
  let t : Fin cfg0.N := ⟨(i 0).val * 4 + (i 1).val / 512, by rw [hN]; omega⟩
  have hf := idx_facts t
  have e40 : win0_4.index t (0 : Fin 3) = win0_5.index t (0 : Fin 3) := hf.2.2.2.2.2.2.2.2.2.2.2.2.1
  have e41 : win0_4.index t (1 : Fin 3) = win0_5.index t (1 : Fin 3) := hf.2.2.2.2.2.2.2.2.2.2.2.2.2.1
  have e42 : win0_4.index t (2 : Fin 3) = 0 := hf.2.2.2.2.2.2.2.2.2.2.2.2.2.2.1
  have e50 : win0_5.index t (0 : Fin 3) = t.val / 4 := hf.2.2.2.2.2.2.2.2.2.2.2.2.2.2.2.1
  have e51 : win0_5.index t (1 : Fin 3) = t.val % 4 := hf.2.2.2.2.2.2.2.2.2.2.2.2.2.2.2.2.1
  have ht : t.val = (i 0).val * 4 + (i 1).val / 512 := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-! ## The arrays after the run, and the run -/

theorem final5 (c : Dev nD) : (dats m 0 c).arrAt 5 cfg0.N = weights (qA m c) (kA m c) (mA m c) :=
  (dats m 0 c).arrAt_eq_of_cover 5 (weights (qA m c) (kA m c) (mA m c)) (fun t _ => flushed5_eq m c t) cover5

theorem final4 (c : Dev nD) : (dats m 0 c).arrAt 4 cfg0.N = output (qA m c) (kA m c) (vA m c) (mA m c) :=
  (dats m 0 c).arrAt_eq_of_cover 4 (output (qA m c) (kA m c) (vA m c) (mA m c)) (fun t _ => flushed4_eq m c t) cover4

/-- The specification read at the arguments as launched (no operation before the region writes them). -/
theorem spec_at_launch (c : Dev nD) :
    output (qA m c) (kA m c) (vA m c) (mA m c)
        = output (m ((c : Thread nD τ).loc main_arg0)) (m ((c : Thread nD τ).loc main_arg1)) (m ((c : Thread nD τ).loc main_arg2)) (m ((c : Thread nD τ).loc main_arg3))
      ∧ weights (qA m c) (kA m c) (mA m c)
        = weights (m ((c : Thread nD τ).loc main_arg0)) (m ((c : Thread nD τ).loc main_arg1)) (m ((c : Thread nD τ).loc main_arg3)) := by
  unfold qA kA vA mA
  rw [V_main_arg0, V_main_arg1, V_main_arg2]
  exact ⟨rfl, rfl⟩

/-- The kernel's run: both result arrays end as the specification of the arguments, the arguments unchanged. -/
theorem run : θ_run defs (onTc (τ := τ) (main (F := Ideal))) ⟨m, fun _ => 0, ρ⟩ fun r => ∀ c : Dev nD,
      r.2.mem ((c : Thread nD τ).loc main_v1_0) = output (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).1.trans (final4 m c)).trans (spec_at_launch m c).1,
       ((h c).2.1.trans (final5 m c)).trans (spec_at_launch m c).2,
       (h c).2.2⟩)
    (Value.run_blocks m ρ)

end Cert.KernelIdeal.Whole

end
-- ==== Proof.RefSide.lean ====
/-
  The reference, stage by stage, is the specification.

  Read at an index, the reference's masked scaled product is `score`; its row maximum (a fold of `max` over the key axis,
  then one more `max` with the seed `−∞`, which changes nothing) is `rowMax`; its exponentials are `rowExp`, their sum
  over the key axis (from the zero word) the weights' denominator; the quotient is `weight`, and the last contraction
  against the values is `output`. Every step is the stage's own reading at an index followed by the identification of
  the index the stage reads with the coordinates `(b, p, j)`.
-/
import proofs.«129280_j6837587935792_2_alg».proof.Proof.Gen.ReferenceIdeal.Read
import proofs.«129280_j6837587935792_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Attention

variable (q k v : FVec Ideal S64x2048x128 .f32) (msk : IVec S64x2048x2048 1)

/-- The key axis is the one axis the two reductions drop. -/
theorem hred : S64x2048x2048.Reduces [2] S64x2048 := by decide

/-- The index `(b, p)` with the key coordinate `j` put back is `(b, p, j)`. -/
theorem lift_eq (b : Fin 64) (p j : Fin 2048) : hred.lift (ix2 b p) j = ix3 b p j :=
  funext fun a => Fin.ext (by match a with | ⟨0, _⟩ => rfl | ⟨1, _⟩ => rfl | ⟨2, _⟩ => rfl)

/-- The masked scaled product at `(b, p, j)` is the specification's score. -/
theorem score_eq (b : Fin 64) (p j : Fin 2048) :
    val_main_v3 (F := Ideal) q k msk (ix3 b p j) = score q k msk b p j := by
  have el : ∀ d : Fin 128, lidx_main_v0 (ix3 b p j) d = ix3 b p d := fun d =>
    funext fun a => Fin.ext (by match a with | ⟨0, _⟩ => rfl | ⟨1, _⟩ => rfl | ⟨2, _⟩ => rfl)
  have er : ∀ d : Fin 128, ridx_main_v0 (ix3 b p j) d = ix3 b j d := fun d =>
    funext fun a => Fin.ext (by match a with | ⟨0, _⟩ => rfl | ⟨1, _⟩ => rfl | ⟨2, _⟩ => rfl)
  rw [val_main_v3_apply, val_main_v2_apply, val_main_v0_apply, val_main_v1_apply, val_main_cst_apply,
    val_main_call0_v1_apply, val_main_call0_v0_apply, val_main_cst_0_apply]
  simp only [el, er]
  rfl

/-- The reference's row maximum at `(b, p)` is the greatest score of the row. -/
theorem max_eq (b : Fin 64) (p : Fin 2048) :
    val_main_v6 (F := Ideal) q k msk (ix2 b p) = rowMax (score q k msk b p) := by
  have h4 : val_main_v4 (F := Ideal) q k msk (ix2 b p) = rowMax (score q k msk b p) := by
    unfold val_main_v4
    refine (Host.reduce_eq_fold_single FloatOps.maximumf _ _ reducesTo_S64x2048x2048_S64x2048_d2 hred h_S_ (ix2 b p)).trans ?_
    have hf : (val_main_v3 (F := Ideal) q k msk ∘ hred.lift (ix2 b p)) = score q k msk b p := funext fun j => by
      show val_main_v3 (F := Ideal) q k msk (hred.lift (ix2 b p) j) = _
      rw [lift_eq b p j]
      exact score_eq q k msk b p j
    rw [hf]
    rfl
  rw [val_main_v6_apply, val_main_v5_apply, val_main_cst_2_apply, h4]
  exact max_seed_rowMax _

/-- The reference's exponential at `(b, p, j)`. -/
theorem exp_eq (b : Fin 64) (p j : Fin 2048) :
    val_main_v10 (F := Ideal) q k msk (ix3 b p j) = rowExp (score q k msk b p) j := by
  have e : idx_main_v7 (idx_main_v8 (ix3 b p j)) = ix2 b p :=
    funext fun a => Fin.ext (by match a with | ⟨0, _⟩ => rfl | ⟨1, _⟩ => rfl)
  rw [val_main_v10_apply, val_main_v9_apply, val_main_v8_apply, val_main_v7_apply, score_eq, e, max_eq]
  rfl

/-- The reference's sum of a row's exponentials at `(b, p)`: the zero word plus the sum over the key axis. -/
theorem sum_eq (b : Fin 64) (p : Fin 2048) :
    val_main_v11 (F := Ideal) q k msk (ix2 b p) = ∑ j : Fin 2048, rowExp (score q k msk b p) j := by
  rw [val_main_v11_apply, val_main_cst_3_apply]
  show Ideal.ofBits .f32 0x00000000#32 + _ = _
  rw [Ideal.ofBits_zero_f32, zero_add]
  refine Finset.sum_congr rfl fun j _ => ?_
  have e : idx_main_v11 (ix2 b p) j = ix3 b p j :=
    funext fun a => Fin.ext (by match a with | ⟨0, _⟩ => rfl | ⟨1, _⟩ => rfl | ⟨2, _⟩ => rfl)
  rw [e, exp_eq]

/-- The reference's weight at `(b, p, j)`. -/
theorem weight_eq (b : Fin 64) (p j : Fin 2048) :
    val_main_v14 (F := Ideal) q k msk (ix3 b p j) = weight (score q k msk b p) j := by
  have e : idx_main_v12 (idx_main_v13 (ix3 b p j)) = ix2 b p :=
    funext fun a => Fin.ext (by match a with | ⟨0, _⟩ => rfl | ⟨1, _⟩ => rfl)
  rw [val_main_v14_apply, exp_eq, val_main_v13_apply, val_main_v12_apply, e, sum_eq]
  rfl

/-- The reference's second result is the specification's weights. -/
theorem weights_eq : val_main_v14 (F := Ideal) q k msk = weights q k msk := funext fun i => by
  obtain ⟨b, p, j, rfl⟩ : ∃ (b : Fin 64) (p j : Fin 2048), i = ix3 b p j := ⟨i 0, i 1, i 2, eq_ix3 i⟩
  exact weight_eq q k msk b p j

/-- The reference's first result is the specification's output. -/
theorem output_eq : val_main_v15 (F := Ideal) q k v msk = output q k v msk := funext fun i => by
  obtain ⟨b, p, e, rfl⟩ : ∃ (b : Fin 64) (p : Fin 2048) (e : Fin 128), i = ix3 b p e := ⟨i 0, i 1, i 2, eq_ix3 i⟩
  rw [val_main_v15_apply]
  refine Finset.sum_congr rfl fun j _ => ?_
  have el : lidx_main_v15 (ix3 b p e) j = ix3 b p j :=
    funext fun a => Fin.ext (by match a with | ⟨0, _⟩ => rfl | ⟨1, _⟩ => rfl | ⟨2, _⟩ => rfl)
  have er : ridx_main_v15 (ix3 b p e) j = ix3 b j e :=
    funext fun a => Fin.ext (by match a with | ⟨0, _⟩ => rfl | ⟨1, _⟩ => rfl | ⟨2, _⟩ => rfl)
  rw [el, er, weight_eq]

end Cert.ReferenceIdeal.RefValue

end
-- ==== Proof.lean ====
/-
  Masked scaled dot-product attention, tiled over 64 batches × 4 blocks of 512 query rows, against the same formula
  written with whole-array operations.

  Both programs compute, for batch `b`, query row `r` and key row `j`, the score `(Σ_d q[b,r,d] · k[b,j,d]) · scale`
  where the mask holds and one fill value where it does not, turn each row of scores into softmax weights
  `exp (s_j − max s) / Σ_k exp (s_k − max s)`, and return `Σ_j w_j · v[b,j,e]` together with the weights. The scale, the
  fill and the `−∞` seed of the row maximum are the same float words on both sides. The tiled program keeps a whole
  batch of keys and values at every grid point, so each row's softmax is taken in one pass over all 2048 keys and no
  rearrangement of a sum is needed: over the extended reals the two results agree term by term, whatever the inputs.
  The three frames are the generated ones (the reference's is its generated run with the results dropped); no rewrite
  was applied when the tiled program was idealized, so that conjunct is trivial.
-/
import proofs.«129280_j6837587935792_2_alg».proof.Defs
import proofs.«129280_j6837587935792_2_alg».proof.Proof.Gen.Kernel
import proofs.«129280_j6837587935792_2_alg».proof.Proof.Gen.Kernel.Skeleton
import proofs.«129280_j6837587935792_2_alg».proof.Proof.Gen.Kernel.Launch
import proofs.«129280_j6837587935792_2_alg».proof.Proof.Gen.Kernel.Points
import proofs.«129280_j6837587935792_2_alg».proof.Proof.Gen.Kernel.Frame
import proofs.«129280_j6837587935792_2_alg».proof.Proof.Gen.KernelIdeal
import proofs.«129280_j6837587935792_2_alg».proof.Proof.Gen.KernelIdeal.Skeleton
import proofs.«129280_j6837587935792_2_alg».proof.Proof.Gen.KernelIdeal.Launch
import proofs.«129280_j6837587935792_2_alg».proof.Proof.Gen.KernelIdeal.Points
import proofs.«129280_j6837587935792_2_alg».proof.Proof.Gen.KernelIdeal.Frame
import proofs.«129280_j6837587935792_2_alg».proof.Proof.Gen.ReferenceIdeal
import proofs.«129280_j6837587935792_2_alg».proof.Proof.Gen.Pre_finite_inputs
import proofs.«129280_j6837587935792_2_alg».proof.Proof.Gen.KernelIdeal.Value
import proofs.«129280_j6837587935792_2_alg».proof.Proof.Gen.ReferenceIdeal.Run
import proofs.«129280_j6837587935792_2_alg».proof.Proof.Gen.ReferenceIdeal.Read
import proofs.«129280_j6837587935792_2_alg».proof.Proof.Whole
import proofs.«129280_j6837587935792_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, keeping only that its arguments end unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- The tiled program's result arrays end as the specification's output and weights of its arguments; the reference's
    two results, read stage by stage, are the same two functions of its arguments; and the arguments agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · refine (Cert.ReferenceIdeal.Read.val_main_v15_eq _ _ _ _).trans ((Cert.ReferenceIdeal.RefValue.output_eq _ _ _ _).trans ?_)
    rw [a0, a1, a2, a3]
  · refine (Cert.ReferenceIdeal.Read.val_main_v14_eq _ _ _).trans ((Cert.ReferenceIdeal.RefValue.weights_eq _ _ _).trans ?_)
    rw [a0, a1, a3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
